-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S_ : Shape := ⟨0, ![]⟩

class Facts : Prop where
  bcast_S_S65536x10 : S_.BroadcastsInDim S65536x10 (![] : Fin 0 → Fin S65536x10.rank)
  reducesTo_S65536x10_S_d0_1 : S65536x10.ReducesTo [0, 1] S_
  h_S_ : 0 < S_.numel
  bcast_S_S512 : S_.BroadcastsInDim S512 (![] : Fin 0 → Fin S512.rank)
  reducesTo_S512_S_d0 : S512.ReducesTo [0] S_
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S512x2 .f32) (main_arg8 : FVec F S2 .f32) (main_v33 : IVec S_ 1) : IVec S_ 1 :=
  let main_v34 : FVec F S512x2 .f32 := Host.absf main_arg7
  let main_cst_12 : FVec F S_ .f32 := constant S_ .f32 0x7F800000#32
  let main_v35 : FVec F S512x2 .f32 := broadcastInDim S512x2 ![] bcast_S_S512x2 main_cst_12
  let main_v36 : IVec S512x2 1 := cmpf .olt main_v34 main_v35
  let main_c_13 : IVec S_ 1 := constantI S_ 1 1#1
  let main_v37 : IVec S_ 1 := (fun x v => Host.reduce IntOp.andi x v reducesTo_S512x2_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S8x512 .f32) (main_arg5 : FVec F S512x512 .f32) (main_arg6 : FVec F S512 .f32) (main_arg7 : FVec F S512x2 .f32) (main_arg8 : FVec F S2 .f32) (main_v13 : IVec S_ 1) (main_v16 : IVec S8x512 1) : IVec S_ 1 :=
  let main_c_5 : IVec S_ 1 := constantI S_ 1 1#1
  let main_v17 : IVec S_ 1 := (fun x v => Host.reduce IntOp.andi x v reducesTo_S8x512_S_d0_1 h_S_) main_v16 main_c_5
  let main_v18 : IVec S_ 1 := andi main_v13 main_v17
  let main_v19 : FVec F S8x512 .f32 := Host.absf main_arg4
  let main_cst_6 : FVec F S_ .f32 := constant S_ .f32 0x7F800000#32
  let main_v20 : FVec F S8x512 .f32 := broadcastInDim S8x512 ![] bcast_S_S8x512 main_cst_6
  let main_v21 : IVec S8x512 1 := cmpf .olt main_v19 main_v20
  let main_c_7 : IVec S_ 1 := constantI S_ 1 1#1
  let main_v22 : IVec S_ 1 := (fun x v => Host.reduce IntOp.andi x v reducesTo_S8x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x10 .f32) (main_arg1 : FVec F S512 .f32) (main_arg2 : FVec F S512 .f32) (main_arg3 : FVec F S8x512 .f32) (main_arg4 : FVec F S8x512 .f32) (main_arg5 : FVec F S512x512 .f32) (main_arg6 : FVec F S512 .f32) (main_arg7 : FVec F S512x2 .f32) (main_arg8 : FVec F S2 .f32) : IVec S_ 1 :=
  let main_v0 : FVec F S65536x10 .f32 := Host.absf main_arg0
  let main_cst : FVec F S_ .f32 := constant S_ .f32 0x7F800000#32
  let main_v1 : FVec F S65536x10 .f32 := broadcastInDim S65536x10 ![] bcast_S_S65536x10 main_cst
  let main_v2 : IVec S65536x10 1 := cmpf .olt main_v0 main_v1
  let main_c : IVec S_ 1 := constantI S_ 1 1#1
  let main_v3 : IVec S_ 1 := (fun x v => Host.reduce IntOp.andi x v reducesTo_S65536x10_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S8x512 .f32 := Host.absf main_arg3
  let main_cst_4 : FVec F S_ .f32 := constant S_ .f32 0x7F800000#32
  let main_v15 : FVec F S8x512 .f32 := broadcastInDim S8x512 ![] bcast_S_S8x512 main_cst_4
  let main_v16 : IVec S8x512 1 := cmpf .olt main_v14 main_v15
  fn_part1 (F := F) main_arg4 main_arg5 main_arg6 main_arg7 main_arg8 main_v13 main_v16
-- ==== Kernel.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S8x1024 : Shape := ⟨2, ![8, 1024]⟩
abbrev S65536x2 : Shape := ⟨2, ![65536, 2]⟩
abbrev S2048x10 : Shape := ⟨2, ![2048, 10]⟩
abbrev S2048x2 : Shape := ⟨2, ![2048, 2]⟩
abbrev S2048x8 : Shape := ⟨2, ![2048, 8]⟩
abbrev S2048x1 : Shape := ⟨2, ![2048, 1]⟩
abbrev S1x512 : Shape := ⟨2, ![1, 512]⟩
abbrev S2048x512 : Shape := ⟨2, ![2048, 512]⟩
abbrev S2048x1024 : Shape := ⟨2, ![2048, 1024]⟩
abbrev S1x2 : Shape := ⟨2, ![1, 2]⟩

abbrev nBuf : Space → Nat
  | .hbm => 14
  | .vmem => 11
  | .smem => 0
  | _ => 0

abbrev bufTy : (tb : Table) → Fin (tcTables nBuf tb) → BufTy
  | .hbm, ⟨0, _⟩ => ⟨S65536x10, .f32⟩
  | .hbm, ⟨1, _⟩ => ⟨S512, .f32⟩
  | .hbm, ⟨2, _⟩ => ⟨S512, .f32⟩
  | .hbm, ⟨3, _⟩ => ⟨S8x512, .f32⟩
  | .hbm, ⟨4, _⟩ => ⟨S8x512, .f32⟩
  | .hbm, ⟨5, _⟩ => ⟨S512x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S512x512, .bf16⟩
  | .hbm, ⟨10, _⟩ => ⟨S512x2, .bf16⟩
  | .hbm, ⟨11, _⟩ => ⟨S8x1024, .f32⟩
  | .hbm, ⟨12, _⟩ => ⟨S8x1024, .bf16⟩
  | .hbm, ⟨13, _⟩ => ⟨S65536x2, .f32⟩
  | .local _ .vmem, ⟨0, _⟩ => ⟨S2048x10, .f32⟩
  | .local _ .vmem, ⟨1, _⟩ => ⟨S2048x10, .f32⟩
  | .local _ .vmem, ⟨2, _⟩ => ⟨S512, .f32⟩
  | .local _ .vmem, ⟨3, _⟩ => ⟨S512, .f32⟩
  | .local _ .vmem, ⟨4, _⟩ => ⟨S8x1024, .bf16⟩
  | .local _ .vmem, ⟨5, _⟩ => ⟨S512x512, .bf16⟩
  | .local _ .vmem, ⟨6, _⟩ => ⟨S512, .f32⟩
  | .local _ .vmem, ⟨7, _⟩ => ⟨S512x2, .bf16⟩
  | .local _ .vmem, ⟨8, _⟩ => ⟨S2, .f32⟩
  | .local _ .vmem, ⟨9, _⟩ => ⟨S2048x2, .f32⟩
  | .local _ .vmem, ⟨10, _⟩ => ⟨S2048x2, .f32⟩
  | _, _ => ⟨S65536x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  concatenates_S8x512_S8x512_S8x1024_d1 : Shape.Concatenates [S8x512, S8x512] S8x1024 1
  inb_S2048x10_S2048x10_0_0 : ∀ a, (![0, 0] : Fin 2 → Nat) a + S2048x10.size a ≤ S2048x10.size a
  h_S2048x10 : 0 < S2048x10.numel
  slices_S2048x10_o0_0_S2048x8 : S2048x10.Slices ![0, 0] S2048x8
  slices_S2048x10_o0_8_S2048x1 : S2048x10.Slices ![0, 8] S2048x1
  slices_S2048x10_o0_9_S2048x1 : S2048x10.Slices ![0, 9] S2048x1
  inb_S512_S512_0 : ∀ a, (![0] : Fin 1 → Nat) a + S512.size a ≤ S512.size a
  h_S512 : 0 < S512.numel
  shapeCasts_S512_S1x512 : S512.ShapeCasts S1x512
  broadcasts_S2048x1_S2048x512 : S2048x1.Broadcasts S2048x512
  broadcasts_S1x512_S2048x512 : S1x512.Broadcasts S2048x512
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  slices_S2048x1024_o0_0_S2048x512 : S2048x1024.Slices ![0, 0] S2048x512
  slices_S2048x1024_o0_512_S2048x512 : S2048x1024.Slices ![0, 512] S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  inb_S2048x2_S2048x2_0_0 : ∀ a, (![0, 0] : Fin 2 → Nat) a + S2048x2.size a ≤ S2048x2.size a
  h_S2048x2 : 0 < S2048x2.numel
  dot_S2048x8_S8x1024_S2048x1024_1_0_0_1_n_n_wf : DotDims.WF S2048x8 S8x1024 S2048x1024 [1] [0] [0] [1] [] []
  dot_S2048x512_S512x512_S2048x512_1_0_0_1_n_n_wf : DotDims.WF S2048x512 S512x512 S2048x512 [1] [0] [0] [1] [] []
  dot_S2048x512_S512x2_S2048x2_1_0_0_1_n_n_wf : DotDims.WF S2048x512 S512x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S65536x10.size a
  hwx0_0 : ∀ i : grid0.Coords, EltTy.bits .f32 = 32 ∨ (Rect.block (s := S65536x10) S2048x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .bf16 = 32 ∨ (Rect.block (s := S8x1024) S8x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2.size a ≤ S512x2.size a
  hwx0_6 : ∀ i : grid0.Coords, EltTy.bits .bf16 = 32 ∨ (Rect.block (s := S512x2) S512x2.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x2.size a ≤ S65536x2.size a
  hwx0_8 : ∀ i : grid0.Coords, EltTy.bits .f32 = 32 ∨ (Rect.block (s := S65536x2) S2048x2.size (cc0_transform_8 i) (hinb0_8 i)).WholeWords (EltTy.packing .f32)

variable [Facts₀]

def dot_S2048x8_S8x1024_S2048x1024_1_0_0_1_n_n : DotDims S2048x8 S8x1024 S2048x1024 where
  lhsContracting := [1]
  rhsContracting := [0]
  lhsNonContracting := [0]
  rhsNonContracting := [1]
  lhsBatch := []
  rhsBatch := []
  wf := dot_S2048x8_S8x1024_S2048x1024_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x2_S2048x2_1_0_0_1_n_n : DotDims S2048x512 S512x2 S2048x2 where
  lhsContracting := [1]
  rhsContracting := [0]
  lhsNonContracting := [0]
  rhsNonContracting := [1]
  lhsBatch := []
  rhsBatch := []
  wf := dot_S2048x512_S512x2_S2048x2_1_0_0_1_n_n_wf

abbrev win0_0 : Pipeline.Window sig grid0 :=
  Pipeline.Window.ofSpec (Memref.whole main_arg0) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S512x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x10 : Shape := ⟨2, ![65536, 10]⟩
abbrev S512 : Shape := ⟨1, ![512]⟩
abbrev S8x512 : Shape := ⟨2, ![8, 512]⟩
abbrev S512x512 : Shape := ⟨2, ![512, 512]⟩
abbrev S512x2 : Shape := ⟨2, ![512, 2]⟩
abbrev S2 : Shape := ⟨1, ![2]⟩
abbrev S65536x8 : Shape := ⟨2, ![65536, 8]⟩
abbrev S65536x1 : Shape := ⟨2, ![65536, 1]⟩
abbrev S1x512 : Shape := ⟨2, ![1, 512]⟩
abbrev S65536x512 : Shape := ⟨2, ![65536, 512]⟩
abbrev S_ : Shape := ⟨0, ![]⟩
abbrev S65536x2 : Shape := ⟨2, ![65536, 2]⟩
abbrev S1x2 : Shape := ⟨2, ![1, 2]⟩

abbrev nBuf : Space → Nat
  | .hbm => 39
  | .vmem => 0
  | .smem => 0
  | _ => 0

abbrev bufTy : (tb : Table) → Fin (tcTables nBuf tb) → BufTy
  | .hbm, ⟨0, _⟩ => ⟨S65536x10, .f32⟩
  | .hbm, ⟨1, _⟩ => ⟨S512, .f32⟩
  | .hbm, ⟨2, _⟩ => ⟨S512, .f32⟩
  | .hbm, ⟨3, _⟩ => ⟨S8x512, .f32⟩
  | .hbm, ⟨4, _⟩ => ⟨S8x512, .f32⟩
  | .hbm, ⟨5, _⟩ => ⟨S512x512, .f32⟩
  | .hbm, ⟨6, _⟩ => ⟨S512, .f32⟩
  | .hbm, ⟨7, _⟩ => ⟨S512x2, .f32⟩
  | .hbm, ⟨8, _⟩ => ⟨S2, .f32⟩
  | .hbm, ⟨9, _⟩ => ⟨S65536x8, .f32⟩
  | .hbm, ⟨10, _⟩ => ⟨S65536x1, .f32⟩
  | .hbm, ⟨11, _⟩ => ⟨S65536x1, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S65536x512, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S65536x2, .f32⟩
  | .hbm, ⟨36, _⟩ => ⟨S1x2, .f32⟩
  | .hbm, ⟨37, _⟩ => ⟨S65536x2, .f32⟩
  | .hbm, ⟨38, _⟩ => ⟨S65536x2, .f32⟩
  | _, _ => ⟨S65536x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  slices_S65536x10_S65536x8_0_0 : S65536x10.Slices ![0, 0] S65536x8
  slices_S65536x10_S65536x1_0_8 : S65536x10.Slices ![0, 8] S65536x1
  slices_S65536x10_S65536x1_0_9 : S65536x10.Slices ![0, 9] S65536x1
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  dot_S65536x8_S8x512_S65536x512_1_0_0_1_n_n_wf : DotDims.WF S65536x8 S8x512 S65536x512 [1] [0] [0] [1] [] []
  dot_S65536x512_S512x512_S65536x512_1_0_0_1_n_n_wf : DotDims.WF S65536x512 S512x512 S65536x512 [1] [0] [0] [1] [] []
  dot_S65536x512_S512x2_S65536x2_1_0_0_1_n_n_wf : DotDims.WF S65536x512 S512x2 S65536x2 [1] [0] [0] [1] [] []

variable [Facts₀]

def dot_S65536x8_S8x512_S65536x512_1_0_0_1_n_n : DotDims S65536x8 S8x512 S65536x512 where
  lhsContracting := [1]
  rhsContracting := [0]
  lhsNonContracting := [0]
  rhsNonContracting := [1]
  lhsBatch := []
  rhsBatch := []
  wf := dot_S65536x8_S8x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x2_S65536x2_1_0_0_1_n_n : DotDims S65536x512 S512x2 S65536x2 where
  lhsContracting := [1]
  rhsContracting := [0]
  lhsNonContracting := [0]
  rhsNonContracting := [1]
  lhsBatch := []
  rhsBatch := []
  wf := dot_S65536x512_S512x2_S65536x2_1_0_0_1_n_n_wf

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibAffineLayer.lean ====
/-
  Rows and affine layers read at an entry, over the extended reals.

  A vector `[n]` recast as the row `[1, n]` and repeated down `m` rows is, at `(r, c)`, the vector's entry `c`.
  With that, the tile of an affine layer — an `M × K` by `K × N` product into the zero matrix plus a bias vector
  spread down the rows — is at `(a, c)` the sum `∑ k, l (a, k) · W (k, c)` plus `b c`; and a narrowing of the float
  format, which on the extended reals changes nothing, may stand on the left operand.
-/
import proofs.«125312_j18631568130181_2_alg».proof.Proof.LibPlainMatmul
import proofs.«125312_j18631568130181_2_alg».proof.Proof.LibRows
import Idealize.ShloMosaic.Lib.ValueLayout

noncomputable section

namespace Cert.AffineLayer

open Idealize.ShloMosaic Idealize.ShloMosaic.ValueIdx

variable {α : Type}

/-- A vector `[n]` recast as the row `[1, n]`, read at `(0, c)`, is the vector at `c`. -/
theorem cast_row {n : ℕ} (v : (⟨1, ![n]⟩ : Shape).Idx → α) (h : (⟨1, ![n]⟩ : Shape).ShapeCasts ⟨2, ![1, n]⟩) (c : Fin n) :
    shapeCast ⟨2, ![1, n]⟩ v h (ix2 (0 : Fin 1) c) = v (ix1 c) :=
  shapeCast_apply v h (ix2 0 c) (ix1 c) (by
    rw [Shape.rowMajor_val_one, Shape.rowMajor_val_two]; show c.val = 0 * n + c.val; omega)

/-- A vector `[n]` recast as a row and repeated down `m` rows, read at `(r, c)`, is the vector at `c`. -/
theorem row_of_vector {m n : ℕ} (hn : n ≠ 1) (v : (⟨1, ![n]⟩ : Shape).Idx → α)
    (hc : (⟨1, ![n]⟩ : Shape).ShapeCasts ⟨2, ![1, n]⟩) (hb : (⟨2, ![1, n]⟩ : Shape).Broadcasts ⟨2, ![m, n]⟩)
    (r : Fin m) (c : Fin n) :
    broadcastTo ⟨2, ![m, n]⟩ (shapeCast ⟨2, ![1, n]⟩ v hc) hb (ix2 r c) = v (ix1 c) :=
  (Cert.Rows.bcast_row hn _ hb r c).trans (cast_row v hc c)

/-- An affine layer's tile at `(a, c)`: the product's sum plus the bias entry. -/
theorem affine_apply {M K N : ℕ} (hN : N ≠ 1) (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    {φ₁ φ₂ : FTy} (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (a : Fin M) (c : Fin N) :
    addf (matmul D prec l W (constant (F := Ideal) ⟨2, ![M, N]⟩ .f32 0x00000000#32))
        (broadcastTo ⟨2, ![M, N]⟩ (shapeCast ⟨2, ![1, N]⟩ b hc) hb) (ix2 a c)
      = (∑ k : Fin K, l (ix2 a k) * W (ix2 k c)) + b (ix1 c) := by
  rw [addf_apply, row_of_vector hN b hc hb a c]
  exact congrArg (· + b (ix1 c)) (Cert.LibPlainMatmul.matmul_zero_apply D hlc hrc hln hrn hlb hrb prec l W a c)

end Cert.AffineLayer

end
-- ==== Proof.MlpRow.lean ====
/-
  The function both programs compute, on the extended reals.

  Each input row has ten entries: eight mixing weights `x₀ … x₇`, a scalar `δ = x₈` and a scalar `φ = x₉`.
  The first hidden layer has 512 units: unit `k` is the rectified sum of the affine map `δ · w1 k + b1 k` and of
  the mixture `φ · (∑ₑ xₑ · mw e k) + ∑ₑ xₑ · mb e k` of eight affine maps of `φ`. The second hidden layer is a
  rectified affine map of the first (weights `w2`, bias `b2`), and the two outputs are an affine map of the
  second (weights `w3`, bias `b3`). The rectifier is `max · 0`, the zero being the value the all-zero 32-bit
  pattern denotes. Every sum is written in one fixed order and grouping, so no law of the extended reals beyond
  reading a sum term by term is needed to meet either program.
-/
import Idealize.ShloMosaic.PureOps.Ideal
import Idealize.ShloMosaic.Lib.ValueIdx

noncomputable section

namespace Cert.Mlp

open Idealize.ShloMosaic Idealize.ShloMosaic.ValueIdx

/-- The rectifier's threshold: what the all-zero 32-bit pattern denotes. -/
abbrev z32 : EReal := Ideal.ofBits .f32 0x00000000#32

/-- Entry `e < 8` of a ten-entry row. -/
abbrev mix (e : Fin 8) : Fin 10 := Fin.castLE (by decide) e

/-- Unit `k` of the first hidden layer, for the row `x`. -/
def hid1 (x : Fin 10 → EReal) (w1 b1 : Fin 512 → EReal) (mw mb : Fin 8 → Fin 512 → EReal) (k : Fin 512) : EReal :=
  max ((x ⟨8, by decide⟩ * w1 k + b1 k)
      + (x ⟨9, by decide⟩ * (∑ e : Fin 8, x (mix e) * mw e k) + ∑ e : Fin 8, x (mix e) * mb e k)) z32

/-- Unit `k` of the second hidden layer. -/
def hid2 (x : Fin 10 → EReal) (w1 b1 : Fin 512 → EReal) (mw mb : Fin 8 → Fin 512 → EReal)
    (w2 : Fin 512 → Fin 512 → EReal) (b2 : Fin 512 → EReal) (k : Fin 512) : EReal :=
  max ((∑ j : Fin 512, hid1 x w1 b1 mw mb j * w2 j k) + b2 k) z32

/-- Output `o` for the row `x`. -/
def out (x : Fin 10 → EReal) (w1 b1 : Fin 512 → EReal) (mw mb : Fin 8 → Fin 512 → EReal)
    (w2 : Fin 512 → Fin 512 → EReal) (b2 : Fin 512 → EReal) (w3 : Fin 512 → Fin 2 → EReal) (b3 : Fin 2 → EReal)
    (o : Fin 2) : EReal :=
  (∑ k : Fin 512, hid2 x w1 b1 mw mb w2 b2 k * w3 k o) + b3 o

/-- Row `r` of a matrix with ten columns. -/
abbrev rowOf {n : ℕ} (X : (⟨2, ![n, 10]⟩ : Shape).Idx → EReal) (r : Fin n) : Fin 10 → EReal := fun j => X (ix2 r j)

/-- A vector as a function of its coordinate. -/
abbrev vecOf {n : ℕ} (v : (⟨1, ![n]⟩ : Shape).Idx → EReal) : Fin n → EReal := fun k => v (ix1 k)

/-- A matrix as a function of its two coordinates. -/
abbrev matOf {a b : ℕ} (W : (⟨2, ![a, b]⟩ : Shape).Idx → EReal) : Fin a → Fin b → EReal := fun i j => W (ix2 i j)

/-- The whole result: entry `(r, o)` is output `o` of the perceptron on row `r` of `X`. -/
def G (X : (⟨2, ![65536, 10]⟩ : Shape).Idx → EReal) (W1 B1 : (⟨1, ![512]⟩ : Shape).Idx → EReal)
    (MW MB : (⟨2, ![8, 512]⟩ : Shape).Idx → EReal) (W2 : (⟨2, ![512, 512]⟩ : Shape).Idx → EReal)
    (B2 : (⟨1, ![512]⟩ : Shape).Idx → EReal) (W3 : (⟨2, ![512, 2]⟩ : Shape).Idx → EReal)
    (B3 : (⟨1, ![2]⟩ : Shape).Idx → EReal) : (⟨2, ![65536, 2]⟩ : Shape).Idx → EReal :=
  fun i => out (rowOf X (i 0)) (vecOf W1) (vecOf B1) (matOf MW) (matOf MB) (matOf W2) (vecOf B2) (matOf W3) (vecOf B3) (i 1)

end Cert.Mlp

end
-- ==== Proof.KernelBlock.lean ====
/-
  What one grid step computes, entry by entry.

  A step holds a block of 2048 input rows and the whole of every weight array. Its product with the output weights,
  at `(p, o)`, is the sum over the 512 units `k` of the second hidden layer on row `p` of the block times the output
  weight `(k, o)`. The two mixing tables sit side by side in one `8 × 1024` array: the weights in columns `0 … 511`,
  the biases in columns `512 … 1023`, so the two halves of the one product with the eight mixing columns are the two
  mixtures of the first layer. Narrowing a value's float format changes nothing on the extended reals, so the
  narrowed operands of the three products are the operands themselves.
-/
import proofs.«125312_j18631568130181_2_alg».proof.Proof.Gen.KernelIdeal.Skeleton
import proofs.«125312_j18631568130181_2_alg».proof.Proof.LibAffineLayer
import proofs.«125312_j18631568130181_2_alg».proof.Proof.MlpRow
import Idealize.ShloMosaic.Lib.Pipeline.Value

noncomputable section

namespace Cert.KernelIdeal.Block

open Cert.KernelIdeal Cert.KernelIdeal.Gen Idealize.ShloMosaic Idealize.ShloMosaic.ValueIdx

/-- Column `k` of the left half of a 1024-column table. -/
abbrev lo (k : Fin 512) : Fin 1024 := Fin.castLE (by decide) k
/-- Column `k` of the right half. -/
abbrev hi (k : Fin 512) : Fin 1024 := ⟨512 + k.val, by have := k.isLt; omega⟩

/-- The mixing weights: the left half of the side-by-side table. -/
abbrev mwOf (T : (⟨2, ![8, 1024]⟩ : Shape).Idx → EReal) : Fin 8 → Fin 512 → EReal := fun e k => T (ix2 e (lo k))
/-- The mixing biases: the right half. -/
abbrev mbOf (T : (⟨2, ![8, 1024]⟩ : Shape).Idx → EReal) : Fin 8 → Fin 512 → EReal := fun e k => T (ix2 e (hi k))

variable (P0 : FVec Ideal S2048x10 .f32) (P1 P2 : FVec Ideal S512 .f32) (P3 : FVec Ideal S8x1024 .bf16)
  (P4 : FVec Ideal S512x512 .bf16) (P5 : FVec Ideal S512 .f32) (P6 : FVec Ideal S512x2 .bf16)

/-- Column 8 of the block spread along the row: entry `(p, j)` is `x p 8`. -/
theorem delta_apply (p : Fin 2048) (j : Fin 512) :
    broadcastTo S2048x512 (extractStridedSlice S2048x1 ![0, 8] P0 slices_S2048x10_o0_8_S2048x1) broadcasts_S2048x1_S2048x512 (ix2 p j)
      = P0 (ix2 p ⟨8, by decide⟩) :=
  (Cert.Rows.bcast_col (by decide) _ _ p j).trans
    (extractStridedSlice_apply _ P0 _ (ix2 p 0) (ix2 p ⟨8, by decide⟩) (fun a => match a with
      | ⟨0, _⟩ => by show p.val = 0 + p.val; omega
      | ⟨1, _⟩ => rfl))

/-- Column 9 of the block spread along the row: entry `(p, j)` is `x p 9`. -/
theorem phi_apply (p : Fin 2048) (j : Fin 512) :
    broadcastTo S2048x512 (extractStridedSlice S2048x1 ![0, 9] P0 slices_S2048x10_o0_9_S2048x1) broadcasts_S2048x1_S2048x512 (ix2 p j)
      = P0 (ix2 p ⟨9, by decide⟩) :=
  (Cert.Rows.bcast_col (by decide) _ _ p j).trans
    (extractStridedSlice_apply _ P0 _ (ix2 p 0) (ix2 p ⟨9, by decide⟩) (fun a => match a with
      | ⟨0, _⟩ => by show p.val = 0 + p.val; omega
      | ⟨1, _⟩ => rfl))

/-- The product of the eight mixing columns with the side-by-side table, at `(p, c)`. -/
theorem mixture_apply (p : Fin 2048) (c : Fin 1024) :
    matmul (F := Ideal) dot_S2048x8_S8x1024_S2048x1024_1_0_0_1_n_n none
        (truncf .bf16 (extractStridedSlice S2048x8 ![0, 0] P0 slices_S2048x10_o0_0_S2048x8) bitsLt_bf16_f32)
        P3 (constant (F := Ideal) S2048x1024 .f32 0x00000000#32) (ix2 p c)
      = ∑ e : Fin 8, P0 (ix2 p (Mlp.mix e)) * P3 (ix2 e c) := by
  refine (Cert.LibPlainMatmul.matmul_zero_apply _ rfl rfl rfl rfl rfl rfl none _ _ p c).trans ?_
  refine Finset.sum_congr rfl fun e _ => ?_
  rw [truncf_apply]
  exact congrArg (· * P3 (ix2 e c)) (extractStridedSlice_apply _ P0 _ (ix2 p e) (ix2 p (Mlp.mix e)) (fun a => match a with
    | ⟨0, _⟩ => by show p.val = 0 + p.val; omega
    | ⟨1, _⟩ => by show e.val = 0 + e.val; omega))

/-- The left half of that product: the mixture of the weights. -/
theorem mixture_lo_apply (p : Fin 2048) (j : Fin 512) :
    extractStridedSlice S2048x512 ![0, 0]
        (matmul (F := Ideal) dot_S2048x8_S8x1024_S2048x1024_1_0_0_1_n_n none
          (truncf .bf16 (extractStridedSlice S2048x8 ![0, 0] P0 slices_S2048x10_o0_0_S2048x8) bitsLt_bf16_f32)
          P3 (constant (F := Ideal) S2048x1024 .f32 0x00000000#32))
        slices_S2048x1024_o0_0_S2048x512 (ix2 p j)
      = ∑ e : Fin 8, P0 (ix2 p (Mlp.mix e)) * mwOf P3 e j :=
  (extractStridedSlice_apply _ _ _ (ix2 p j) (ix2 p (lo j)) (fun a => match a with
      | ⟨0, _⟩ => by show p.val = 0 + p.val; omega
      | ⟨1, _⟩ => by show j.val = 0 + j.val; omega)).trans (mixture_apply P0 P3 p (lo j))

/-- The right half: the mixture of the biases. -/
theorem mixture_hi_apply (p : Fin 2048) (j : Fin 512) :
    extractStridedSlice S2048x512 ![0, 512]
        (matmul (F := Ideal) dot_S2048x8_S8x1024_S2048x1024_1_0_0_1_n_n none
          (truncf .bf16 (extractStridedSlice S2048x8 ![0, 0] P0 slices_S2048x10_o0_0_S2048x8) bitsLt_bf16_f32)
          P3 (constant (F := Ideal) S2048x1024 .f32 0x00000000#32))
        slices_S2048x1024_o0_512_S2048x512 (ix2 p j)
      = ∑ e : Fin 8, P0 (ix2 p (Mlp.mix e)) * mbOf P3 e j :=
  (extractStridedSlice_apply _ _ _ (ix2 p j) (ix2 p (hi j)) (fun a => match a with
      | ⟨0, _⟩ => by show p.val = 0 + p.val; omega
      | ⟨1, _⟩ => rfl)).trans (mixture_apply P0 P3 p (hi j))

/-- The step's product with the output weights, at `(p, o)`. -/
theorem pay2_apply (p : Fin 2048) (o : Fin 2) :
    k0_pay2 (F := Ideal) P0 P1 P2 P3 P4 P5 P6 (ix2 p o)
      = ∑ k : Fin 512, Mlp.hid2 (Mlp.rowOf P0 p) (Mlp.vecOf P1) (Mlp.vecOf P2) (mwOf P3) (mbOf P3) (Mlp.matOf P4) (Mlp.vecOf P5) k
          * P6 (ix2 k o) := by
  unfold k0_pay2 Mlp.hid2 Mlp.hid1
  simp only [shapeCast_self]
  refine (Cert.LibPlainMatmul.matmul_zero_apply _ rfl rfl rfl rfl rfl rfl none _ _ p o).trans ?_
  refine Finset.sum_congr rfl fun k _ => ?_
  rw [truncf_apply, maximumf_apply, broadcast_apply,
    Cert.AffineLayer.affine_apply (by decide) _ rfl rfl rfl rfl rfl rfl]
  refine congrArg (fun z => max (z + P5 (ix1 k)) Mlp.z32 * P6 (ix2 k o)) ?_
  refine Finset.sum_congr rfl fun j _ => ?_
  rw [truncf_apply, maximumf_apply, broadcast_apply, addf_apply, addf_apply, mulf_apply, addf_apply,
    mulf_apply, delta_apply, phi_apply, mixture_lo_apply, mixture_hi_apply,
    Cert.AffineLayer.row_of_vector (by decide) P1, Cert.AffineLayer.row_of_vector (by decide) P2]
  rfl

end Cert.KernelIdeal.Block

end
-- ==== Proof.KernelArray.lean ====
/-
  The kernel's result array is the row-wise perceptron `Mlp.G` of its arguments.

  The grid has 32 steps; step `t` reads rows `2048 t … 2048 t + 2047` of the input and the whole of every weight
  array, and writes rows `2048 t … 2048 t + 2047` of the result. Three of the weight arrays are prepared before the
  first step: the two big weight matrices with their float format narrowed, which changes nothing on the extended
  reals, and the two mixing tables laid side by side along the column axis, so that column `k < 512` of the joint
  table is column `k` of the weights and column `512 + k` is column `k` of the biases. Row `p` of step `t`'s block is
  row `2048 t + p` of the input, so what the step writes at `(p, o)` is `Mlp.G` at `(2048 t + p, o)`; the 32 row
  bands cover the result, row `r` lying in band `r / 2048`.
-/
import proofs.«125312_j18631568130181_2_alg».proof.Proof.Gen.KernelIdeal.Value
import proofs.«125312_j18631568130181_2_alg».proof.Proof.KernelBlock
import Idealize.ShloMosaic.Lib.StableHlo.Run
import Idealize.ShloMosaic.Lib.Tactic

set_option maxRecDepth 16384

noncomputable section

namespace Cert.KernelIdeal.Whole

open Cert.KernelIdeal Cert.KernelIdeal.Gen Cert.KernelIdeal.Block Idealize.ShloMosaic Idealize.ShloMosaic.TcCoe
open Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- Two functions of a rank-2 index that agree at every pair of coordinates are equal. -/
theorem funext_ix2 {n0 n1 : ℕ} {α : Type} {f g : (⟨2, ![n0, n1]⟩ : Shape).Idx → α}
    (h : ∀ (p : Fin n0) (o : Fin n1), f (ix2 p o) = g (ix2 p o)) : f = g :=
  funext fun j => (congrArg f (eq_ix2 j)).trans ((h (j 0) (j 1)).trans (congrArg g (eq_ix2 j)).symm)

theorem hz2 : (![0, 0] : Fin 2 → Nat) = fun _ => 0 := funext fun a => by fin_cases a <;> rfl
theorem hz1 : (![0] : Fin 1 → Nat) = fun _ => 0 := funext fun a => by fin_cases a; rfl

/-! ## The arrays prepared before the first step -/

/-- The second layer's weights as the steps find them: the argument, its format narrowed. -/
theorem V_w2 (c : Dev nD) :
    (V m c main_v0 : S512x512.Idx → EReal) = (m ((c : Thread nD τ).loc main_arg5) : S512x512.Idx → EReal) := by
  dsimp only [V, hostOps0]; after_results; rfl

/-- The output weights as the steps find them. -/
theorem V_w3 (c : Dev nD) :
    (V m c main_v1 : S512x2.Idx → EReal) = (m ((c : Thread nD τ).loc main_arg7) : S512x2.Idx → EReal) := by
  dsimp only [V, hostOps0]; after_results; rfl

/-- The joint mixing table: the weights and the biases side by side along the columns. -/
theorem V_table (c : Dev nD) :
    (V m c main_v3 : S8x1024.Idx → EReal)
      = concatenate S8x1024 1 [⟨S8x512, (m ((c : Thread nD τ).loc main_arg3) : S8x512.Idx → EReal)⟩,
          ⟨S8x512, (m ((c : Thread nD τ).loc main_arg4) : S8x512.Idx → EReal)⟩] concatenates_S8x512_S8x512_S8x1024_d1 := by
  dsimp only [V, hostOps0]; after_results; rfl

/-- Its left half is the mixing weights. -/
theorem table_lo (c : Dev nD) (e : Fin 8) (k : Fin 512) :
    (V m c main_v3 : S8x1024.Idx → EReal) (ix2 e (lo k)) = (m ((c : Thread nD τ).loc main_arg3) : S8x512.Idx → EReal) (ix2 e k) := by
  rw [V_table]
  exact concatenate_pair_apply_left (t := S8x1024) (s₁ := S8x512) (s₂ := S8x512) (1 : Fin 2)
    (m ((c : Thread nD τ).loc main_arg3) : S8x512.Idx → EReal) (m ((c : Thread nD τ).loc main_arg4) : S8x512.Idx → EReal)
    concatenates_S8x512_S8x512_S8x1024_d1 (ix2 e (lo k)) rfl (ix2 e k)
    (fun b => match b with | ⟨0, _⟩ => rfl | ⟨1, _⟩ => rfl)

/-- Its right half is the mixing biases. -/
theorem table_hi (c : Dev nD) (e : Fin 8) (k : Fin 512) :
    (V m c main_v3 : S8x1024.Idx → EReal) (ix2 e (hi k)) = (m ((c : Thread nD τ).loc main_arg4) : S8x512.Idx → EReal) (ix2 e k) := by
  rw [V_table]
  exact concatenate_pair_apply_right (t := S8x1024) (s₁ := S8x512) (s₂ := S8x512) (1 : Fin 2)
    (m ((c : Thread nD τ).loc main_arg3) : S8x512.Idx → EReal) (m ((c : Thread nD τ).loc main_arg4) : S8x512.Idx → EReal)
    concatenates_S8x512_S8x512_S8x1024_d1 (ix2 e (hi k)) rfl rfl (ix2 e k)
    (fun b hb => match b with | ⟨0, _⟩ => rfl | ⟨1, _⟩ => absurd rfl hb)
    (by show k.val + 512 = 512 + k.val; omega)

/-! ## The blocks a step reads -/

/-- The printed index maps, decided over the 32 steps: the input's row band moves with the result's, every other
    block index is zero. -/
theorem idx_facts : ∀ t : Fin cfg0.N,
    win0_0.index t (0 : Fin 2) = win0_8.index t (0 : Fin 2) ∧ win0_0.index t (1 : Fin 2) = 0
    ∧ win0_8.index t (1 : Fin 2) = 0 ∧ win0_8.index t (0 : Fin 2) ≤ 31
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-- Every row band is some step's. -/
theorem idx_onto : ∀ q : Fin 32, ∃ t : Fin cfg0.N, win0_8.index t = ![q.val, 0] :=
  (by decide +kernel : ∀ q : Fin 32, ∃ t : Fin grid0.N, win0_8.index t = ![q.val, 0])

/-- Row `p` of step `t`'s input block is row `2048 t + p` of the input. -/
theorem row_blk (c : Dev nD) (t : Fin cfg0.N) (p : Fin 2048) (r : Fin 65536)
    (hr : r.val = win0_8.index t (0 : Fin 2) * 2048 + p.val) :
    Mlp.rowOf (iblk m c 0 t : FVec Ideal S2048x10 .f32) p
      = Mlp.rowOf (m ((c : Thread nD τ).loc main_arg0) : S65536x10.Idx → EReal) r := by
  obtain ⟨h00, h01, -⟩ := idx_facts t
  funext col
  show V m c main_arg0 (((cfg0.win 0).blk t).view.emb (ix2 p col)) = m ((c : Thread nD τ).loc main_arg0) (ix2 r col)
  rw [V_main_arg0]
  congr 1
  funext a; apply Fin.ext
  match a with
  | ⟨0, _⟩ => show win0_0.index t (0 : Fin 2) * 2048 + 1 * p.val = r.val; rw [h00, hr]; omega
  | ⟨1, _⟩ => show win0_0.index t (1 : Fin 2) * 10 + 1 * col.val = col.val; rw [h01]; omega

/-- Every step reads the whole of the first layer's weights. -/
theorem vec_blk1 (c : Dev nD) (t : Fin cfg0.N) :
    Mlp.vecOf (iblk m c 1 t : FVec Ideal S512 .f32) = Mlp.vecOf (m ((c : Thread nD τ).loc main_arg1) : S512.Idx → EReal) := by
  have h := (idx_facts t).2.2.2.2.1
  funext k
  show V m c main_arg1 (((cfg0.win 1).blk t).view.emb (ix1 k)) = m ((c : Thread nD τ).loc main_arg1) (ix1 k)
  rw [V_main_arg1]
  congr 1
  funext a; apply Fin.ext
  match a with
  | ⟨0, _⟩ => show win0_1.index t (0 : Fin 1) * 512 + 1 * k.val = k.val; rw [h]; omega

/-- … of the first layer's biases. -/
theorem vec_blk2 (c : Dev nD) (t : Fin cfg0.N) :
    Mlp.vecOf (iblk m c 2 t : FVec Ideal S512 .f32) = Mlp.vecOf (m ((c : Thread nD τ).loc main_arg2) : S512.Idx → EReal) := by
  have h := (idx_facts t).2.2.2.2.2.1
  funext k
  show V m c main_arg2 (((cfg0.win 2).blk t).view.emb (ix1 k)) = m ((c : Thread nD τ).loc main_arg2) (ix1 k)
  rw [V_main_arg2]
  congr 1
  funext a; apply Fin.ext
  match a with
  | ⟨0, _⟩ => show win0_2.index t (0 : Fin 1) * 512 + 1 * k.val = k.val; rw [h]; omega

/-- … of the joint mixing table: its left half the mixing weights. -/
theorem mw_blk (c : Dev nD) (t : Fin cfg0.N) :
    mwOf (iblk m c 3 t : FVec Ideal S8x1024 .bf16) = Mlp.matOf (m ((c : Thread nD τ).loc main_arg3) : S8x512.Idx → EReal) := by
  obtain ⟨-, -, -, -, -, -, h0, h1, -⟩ := idx_facts t
  funext e k
  show V m c main_v3 (((cfg0.win 3).blk t).view.emb (ix2 e (lo k))) = m ((c : Thread nD τ).loc main_arg3) (ix2 e k)
  have he : ((cfg0.win 3).blk t).view.emb (ix2 e (lo k)) = ix2 e (lo k) := by
    funext a; apply Fin.ext
    match a with
    | ⟨0, _⟩ => show win0_3.index t (0 : Fin 2) * 8 + 1 * e.val = e.val; rw [h0]; omega
    | ⟨1, _⟩ => show win0_3.index t (1 : Fin 2) * 1024 + 1 * k.val = k.val; rw [h1]; omega
  rw [he]
  exact table_lo m c e k

/-- … its right half the mixing biases. -/
theorem mb_blk (c : Dev nD) (t : Fin cfg0.N) :
    mbOf (iblk m c 3 t : FVec Ideal S8x1024 .bf16) = Mlp.matOf (m ((c : Thread nD τ).loc main_arg4) : S8x512.Idx → EReal) := by
  obtain ⟨-, -, -, -, -, -, h0, h1, -⟩ := idx_facts t
  funext e k
  show V m c main_v3 (((cfg0.win 3).blk t).view.emb (ix2 e (hi k))) = m ((c : Thread nD τ).loc main_arg4) (ix2 e k)
  have he : ((cfg0.win 3).blk t).view.emb (ix2 e (hi k)) = ix2 e (hi k) := by
    funext a; apply Fin.ext
    match a with
    | ⟨0, _⟩ => show win0_3.index t (0 : Fin 2) * 8 + 1 * e.val = e.val; rw [h0]; omega
    | ⟨1, _⟩ => show win0_3.index t (1 : Fin 2) * 1024 + 1 * (512 + k.val) = 512 + k.val; rw [h1]; omega
  rw [he]
  exact table_hi m c e k

/-- … of the second layer's weights. -/
theorem mat_blk4 (c : Dev nD) (t : Fin cfg0.N) :
    Mlp.matOf (iblk m c 4 t : FVec Ideal S512x512 .bf16) = Mlp.matOf (m ((c : Thread nD τ).loc main_arg5) : S512x512.Idx → EReal) := by
  obtain ⟨-, -, -, -, -, -, -, -, h0, h1, -⟩ := idx_facts t
  funext i j
  show V m c main_v0 (((cfg0.win 4).blk t).view.emb (ix2 i j)) = m ((c : Thread nD τ).loc main_arg5) (ix2 i j)
  rw [V_w2]
  congr 1
  funext a; apply Fin.ext
  match a with
  | ⟨0, _⟩ => show win0_4.index t (0 : Fin 2) * 512 + 1 * i.val = i.val; rw [h0]; omega
  | ⟨1, _⟩ => show win0_4.index t (1 : Fin 2) * 512 + 1 * j.val = j.val; rw [h1]; omega

/-- … of the second layer's biases. -/
theorem vec_blk5 (c : Dev nD) (t : Fin cfg0.N) :
    Mlp.vecOf (iblk m c 5 t : FVec Ideal S512 .f32) = Mlp.vecOf (m ((c : Thread nD τ).loc main_arg6) : S512.Idx → EReal) := by
  obtain ⟨-, -, -, -, -, -, -, -, -, -, h, -⟩ := idx_facts t
  funext k
  show V m c main_arg6 (((cfg0.win 5).blk t).view.emb (ix1 k)) = m ((c : Thread nD τ).loc main_arg6) (ix1 k)
  rw [V_main_arg6]
  congr 1
  funext a; apply Fin.ext
  match a with
  | ⟨0, _⟩ => show win0_5.index t (0 : Fin 1) * 512 + 1 * k.val = k.val; rw [h]; omega

/-- … of the output weights. -/
theorem mat_blk6 (c : Dev nD) (t : Fin cfg0.N) :
    Mlp.matOf (iblk m c 6 t : FVec Ideal S512x2 .bf16) = Mlp.matOf (m ((c : Thread nD τ).loc main_arg7) : S512x2.Idx → EReal) := by
  obtain ⟨-, -, -, -, -, -, -, -, -, -, -, h0, h1, -⟩ := idx_facts t
  funext i j
  show V m c main_v1 (((cfg0.win 6).blk t).view.emb (ix2 i j)) = m ((c : Thread nD τ).loc main_arg7) (ix2 i j)
  rw [V_w3]
  congr 1
  funext a; apply Fin.ext
  match a with
  | ⟨0, _⟩ => show win0_6.index t (0 : Fin 2) * 512 + 1 * i.val = i.val; rw [h0]; omega
  | ⟨1, _⟩ => show win0_6.index t (1 : Fin 2) * 2 + 1 * j.val = j.val; rw [h1]; omega

/-- … of the output biases. -/
theorem vec_blk7 (c : Dev nD) (t : Fin cfg0.N) :
    Mlp.vecOf (iblk m c 7 t : FVec Ideal S2 .f32) = Mlp.vecOf (m ((c : Thread nD τ).loc main_arg8) : S2.Idx → EReal) := by
  obtain ⟨-, -, -, -, -, -, -, -, -, -, -, -, -, h⟩ := idx_facts t
  funext k
  show V m c main_arg8 (((cfg0.win 7).blk t).view.emb (ix1 k)) = m ((c : Thread nD τ).loc main_arg8) (ix1 k)
  rw [V_main_arg8]
  congr 1
  funext a; apply Fin.ext
  match a with
  | ⟨0, _⟩ => show win0_7.index t (0 : Fin 1) * 2 + 1 * k.val = k.val; rw [h]; omega

/-! ## What a step writes -/

/-- What one step leaves in its output block, at `(p, o)`: output `o` of the perceptron on row `p` of its input block. -/
theorem step_value (x0 : FVec Ideal S2048x10 .f32) (x1 x2 : FVec Ideal S512 .f32) (x3 : FVec Ideal S8x1024 .bf16)
    (x4 : FVec Ideal S512x512 .bf16) (x5 : FVec Ideal S512 .f32) (x6 : FVec Ideal S512x2 .bf16) (x7 : FVec Ideal S2 .f32)
    (p : Fin 2048) (o : Fin 2) :
    out0_8 (F := Ideal) x0 x1 x2 x3 x4 x5 x6 x7 (ix2 p o)
      = Mlp.out (Mlp.rowOf x0 p) (Mlp.vecOf x1) (Mlp.vecOf x2) (mwOf x3) (mbOf x3) (Mlp.matOf x4) (Mlp.vecOf x5)
          (Mlp.matOf x6) (Mlp.vecOf x7) o := by
  unfold out0_8
  simp only [View.ld_unit_zero (S := S2048x10) hz2, View.ld_unit_zero (S := S512) hz1, View.ld_unit_zero (S := S8x1024) hz2,
    View.ld_unit_zero (S := S512x512) hz2, View.ld_unit_zero (S := S512x2) hz2, View.ld_unit_zero (S := S2) hz1]
  rw [Cert.KernelIdeal.Value.canon8_eq]
  show k0_pay2 (F := Ideal) x0 x1 x2 x3 x4 x5 x6 (Cert.KernelIdeal.Value.ix8_0 (ix2 p o)) + x7 (Cert.KernelIdeal.Value.ix8_1 (ix2 p o)) = _
  have e0 : Cert.KernelIdeal.Value.ix8_0 (ix2 p o) = ix2 p o :=
    funext fun a => Fin.ext (by match a with | ⟨0, _⟩ => rfl | ⟨1, _⟩ => rfl)
  have e1 : Cert.KernelIdeal.Value.ix8_1 (ix2 p o) = ix1 o :=
    funext fun a => Fin.ext (by match a with | ⟨0, _⟩ => rfl)
  rw [e0, e1, pay2_apply]
  rfl

/-- `Mlp.G` at an index with coordinates `(r, o)`. -/
theorem G_at (X : (⟨2, ![65536, 10]⟩ : Shape).Idx → EReal) (W1 B1 : (⟨1, ![512]⟩ : Shape).Idx → EReal)
    (MW MB : (⟨2, ![8, 512]⟩ : Shape).Idx → EReal) (W2 : (⟨2, ![512, 512]⟩ : Shape).Idx → EReal)
    (B2 : (⟨1, ![512]⟩ : Shape).Idx → EReal) (W3 : (⟨2, ![512, 2]⟩ : Shape).Idx → EReal)
    (B3 : (⟨1, ![2]⟩ : Shape).Idx → EReal) (i : (⟨2, ![65536, 2]⟩ : Shape).Idx) (r : Fin 65536) (o : Fin 2)
    (h0 : (i 0).val = r.val) (h1 : (i 1).val = o.val) :
    Mlp.G X W1 B1 MW MB W2 B2 W3 B3 i
      = Mlp.out (Mlp.rowOf X r) (Mlp.vecOf W1) (Mlp.vecOf B1) (Mlp.matOf MW) (Mlp.matOf MB) (Mlp.matOf W2) (Mlp.vecOf B2)
          (Mlp.matOf W3) (Mlp.vecOf B3) o := by
  obtain rfl : i = ix2 r o := funext fun d => Fin.ext (by match d with | ⟨0, _⟩ => exact h0 | ⟨1, _⟩ => exact h1)
  rfl

/-- The result the kernel is to leave: `Mlp.G` of the arguments as launched. -/
abbrev result (c : Dev nD) : S65536x2.Idx → EReal :=
  Mlp.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What step `t` writes back is band `t` of the result. -/
theorem flushed_eq (c : Dev nD) (t : Fin cfg0.N) :
    (dats m 0 c).flushed 8 t = ((cfg0.win 8).blk t).view.read (Elt Ideal) (result m c) := by
  obtain ⟨-, -, h81, h80, -⟩ := idx_facts t
  have key : ∀ (p : Fin 2048) (o : Fin 2),
      out0_8 (iblk m c 0 t) (iblk m c 1 t) (iblk m c 2 t) (iblk m c 3 t) (iblk m c 4 t) (iblk m c 5 t) (iblk m c 6 t) (iblk m c 7 t) (ix2 p o)
        = result m c (((cfg0.win 8).blk t).view.emb (ix2 p o)) := by
    intro p o
    have hrow : win0_8.index t (0 : Fin 2) * 2048 + p.val < 65536 := by have := p.isLt; omega
    refine (step_value (iblk m c 0 t) (iblk m c 1 t) (iblk m c 2 t) (iblk m c 3 t) (iblk m c 4 t) (iblk m c 5 t)
      (iblk m c 6 t) (iblk m c 7 t) p o).trans ?_
    rw [row_blk m c t p ⟨win0_8.index t (0 : Fin 2) * 2048 + p.val, hrow⟩ rfl, vec_blk1, vec_blk2, mw_blk, mb_blk, mat_blk4,
      vec_blk5, mat_blk6, vec_blk7]
    refine (G_at _ _ _ _ _ _ _ _ _ (((cfg0.win 8).blk t).view.emb (ix2 p o)) ⟨win0_8.index t (0 : Fin 2) * 2048 + p.val, hrow⟩ o ?_ ?_).symm
    · show win0_8.index t (0 : Fin 2) * 2048 + 1 * p.val = win0_8.index t (0 : Fin 2) * 2048 + p.val; omega
    · show win0_8.index t (1 : Fin 2) * 2 + 1 * o.val = o.val; rw [h81]; omega
  rw [Cert.KernelIdeal.Value.flushed8]
  refine funext_ix2 (n0 := 2048) (n1 := 2) fun p o => ?_
  show out0_8 (iblk m c 0 t) (iblk m c 1 t) (iblk m c 2 t) (iblk m c 3 t) (iblk m c 4 t) (iblk m c 5 t) (iblk m c 6 t) (iblk m c 7 t) (ix2 p o)
    = result m c (((cfg0.win 8).blk t).view.emb (ix2 p o))
  exact key p o

/-- An index of the result lies in step `t`'s band iff each coordinate is in the band's range on its axis. -/
theorem mem_blk (t : Fin cfg0.N) (i : S65536x2.Idx) :
    i ∈ ((cfg0.win 8).blk t).view.set ↔ ∀ a : Fin 2, win0_8.index t a * S2048x2.size a ≤ (i a).val ∧ (i a).val < win0_8.index t a * S2048x2.size a + S2048x2.size a := by
  show i ∈ ((View.whole main_v4).slice (win0_8.rect t)).set ↔ _
  rw [View.set_slice_whole, Rect.mem_set_unit]
  exact Iff.rfl

/-- The 32 bands cover the result: row `r` lies in band `r / 2048`. -/
theorem cover (i : S65536x2.Idx) : ∃ t : Fin cfg0.N, (cfg0.win 8).flush t = true ∧ i ∈ ((cfg0.win 8).blk t).view.set := by
  have hi0 : (i 0).val < 65536 := (i 0).isLt
  have hi1 : (i 1).val < 2 := (i 1).isLt
  obtain ⟨t, ht⟩ := idx_onto ⟨(i 0).val / 2048, by omega⟩
  have q0 : win0_8.index t (0 : Fin 2) = (i 0).val / 2048 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2048 ≤ (i 0).val ∧ (i 0).val < win0_8.index t (0 : Fin 2) * 2048 + 2048; omega
  | ⟨1, _⟩ => show win0_8.index t (1 : Fin 2) * 2 ≤ (i 1).val ∧ (i 1).val < win0_8.index t (1 : Fin 2) * 2 + 2; omega

/-- So the result array ends holding `Mlp.G` of the arguments. -/
theorem final (c : Dev nD) : (dats m 0 c).arrAt 8 cfg0.N = result m c :=
  (dats m 0 c).arrAt_eq_of_cover 8 (result m c) (fun t _ => flushed_eq m c t) cover

/-- The kernel's run, read: the result array at `Mlp.G` of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Cert.KernelIdeal.Value.run_blocks m ρ)

end Cert.KernelIdeal.Whole

end
-- ==== Proof.RefRows.lean ====
/-
  The reference's result is the row-wise perceptron `Mlp.G` of its arguments.

  Read one operation at a time, entry `(r, k)` of the reference's first hidden array is `Mlp.hid1` of row `r` at unit
  `k`: the two column slices `x[:, 8:9]`, `x[:, 9:10]` spread along the row give `x r 8`, `x r 9`; the vectors recast
  as rows and spread down the rows give their entry `k`; each of the two products with the eight mixing columns is
  the sum over `e` of `x r e` times the table's entry `(e, k)`. The second hidden array and the result follow the same
  way from the two remaining products, each a sum over the 512 units of the layer before.
-/
import proofs.«125312_j18631568130181_2_alg».proof.Proof.Gen.ReferenceIdeal.Read
import proofs.«125312_j18631568130181_2_alg».proof.Proof.MlpRow

noncomputable section

namespace Cert.ReferenceIdeal.RefValue

open Cert.ReferenceIdeal Cert.ReferenceIdeal.Read Idealize.ShloMosaic Idealize.ShloMosaic.ValueIdx

/-- A rank-2 index with given coordinates is `ix2` of them. -/
theorem idx2_eq {n0 n1 : ℕ} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- A rank-1 index with a given coordinate is `ix1` of it. -/
theorem idx1_eq {n : ℕ} (j : (⟨1, ![n]⟩ : Shape).Idx) (a : Fin n) (h0 : (j 0).val = a.val) : j = ix1 a :=
  funext fun d => Fin.ext (by match d with | ⟨0, _⟩ => exact h0)

variable (x0 : (⟨S65536x10, .f32⟩ : BufTy).Contents (Elt Ideal)) (x1 x2 : (⟨S512, .f32⟩ : BufTy).Contents (Elt Ideal))
  (x3 x4 : (⟨S8x512, .f32⟩ : BufTy).Contents (Elt Ideal)) (x5 : (⟨S512x512, .f32⟩ : BufTy).Contents (Elt Ideal))
  (x6 : (⟨S512, .f32⟩ : BufTy).Contents (Elt Ideal)) (x7 : (⟨S512x2, .f32⟩ : BufTy).Contents (Elt Ideal))
  (x8 : (⟨S2, .f32⟩ : BufTy).Contents (Elt Ideal))

/-- The first hidden array before the rectifier, at `(r, k)`. -/
theorem pre1_apply (r : Fin 65536) (k : Fin 512) :
    val_main_v15 (F := Ideal) x0 x1 x2 x3 x4 (ix2 r k)
      = (x0 (ix2 r ⟨8, by decide⟩) * x1 (ix1 k) + x2 (ix1 k))
        + (x0 (ix2 r ⟨9, by decide⟩) * (∑ e : Fin 8, x0 (ix2 r (Mlp.mix e)) * x3 (ix2 e k))
          + ∑ e : Fin 8, x0 (ix2 r (Mlp.mix e)) * x4 (ix2 e k)) := by
  rw [val_main_v15_apply, val_main_v9_apply, val_main_v6_apply, val_main_v4_apply, val_main_v1_apply, val_main_v5_apply,
    val_main_v3_apply, val_main_v8_apply, val_main_v7_apply, val_main_v14_apply, val_main_v12_apply, val_main_v11_apply,
    val_main_v2_apply, val_main_v10_apply, val_main_v13_apply]
  simp only [val_main_v0_apply]
  have e1 : idx_main_v1 (idx_main_v4 (ix2 r k)) = ix2 r ⟨8, by decide⟩ := idx2_eq _ _ _ rfl rfl
  have e2 : idx_main_v3 (idx_main_v5 (ix2 r k)) = ix1 k := idx1_eq _ _ rfl
  have e3 : idx_main_v7 (idx_main_v8 (ix2 r k)) = ix1 k := idx1_eq _ _ rfl
  have e4 : idx_main_v2 (idx_main_v11 (ix2 r k)) = ix2 r ⟨9, by decide⟩ := idx2_eq _ _ _ rfl rfl
  have e5 : ∀ e : Fin 8, idx_main_v0 (lidx_main_v10 (ix2 r k) e) = ix2 r (Mlp.mix e) := fun e => idx2_eq _ _ _ rfl rfl
  have e6 : ∀ e : Fin 8, ridx_main_v10 (ix2 r k) e = ix2 e k := fun e => idx2_eq _ _ _ rfl rfl
  have e7 : ∀ e : Fin 8, idx_main_v0 (lidx_main_v13 (ix2 r k) e) = ix2 r (Mlp.mix e) := fun e => idx2_eq _ _ _ rfl rfl
  have e8 : ∀ e : Fin 8, ridx_main_v13 (ix2 r k) e = ix2 e k := fun e => idx2_eq _ _ _ rfl rfl
  simp only [e1, e2, e3, e4, e5, e6, e7, e8]
  rfl

/-- The first hidden array at `(r, k)` is unit `k` of the first layer on row `r`. -/
theorem hid1_apply (r : Fin 65536) (k : Fin 512) :
    val_main_v16 (F := Ideal) x0 x1 x2 x3 x4 (ix2 r k)
      = Mlp.hid1 (Mlp.rowOf x0 r) (Mlp.vecOf x1) (Mlp.vecOf x2) (Mlp.matOf x3) (Mlp.matOf x4) k := by
  rw [val_main_v16_apply, pre1_apply, val_main_call0_v0_apply, val_main_call0_cst_apply]
  rfl

/-- The second hidden array at `(r, k)` is unit `k` of the second layer on row `r`. -/
theorem hid2_apply (r : Fin 65536) (k : Fin 512) :
    val_main_v21 (F := Ideal) x0 x1 x2 x3 x4 x5 x6 (ix2 r k)
      = Mlp.hid2 (Mlp.rowOf x0 r) (Mlp.vecOf x1) (Mlp.vecOf x2) (Mlp.matOf x3) (Mlp.matOf x4) (Mlp.matOf x5) (Mlp.vecOf x6) k := by
  rw [val_main_v21_apply, val_main_v20_apply, val_main_v17_apply, val_main_v19_apply, val_main_v18_apply,
    val_main_call1_v0_apply, val_main_call1_cst_apply]
  have el : ∀ j : Fin 512, lidx_main_v17 (ix2 r k) j = ix2 r j := fun j => idx2_eq _ _ _ rfl rfl
  have er : ∀ j : Fin 512, ridx_main_v17 (ix2 r k) j = ix2 j k := fun j => idx2_eq _ _ _ rfl rfl
  have eb : idx_main_v18 (idx_main_v19 (ix2 r k)) = ix1 k := idx1_eq _ _ rfl
  simp only [el, er, eb, hid1_apply]
  rfl

/-- The reference's result is `Mlp.G` of its arguments. -/
theorem value_eq : val_main_v25 (F := Ideal) x0 x1 x2 x3 x4 x5 x6 x7 x8 = Mlp.G x0 x1 x2 x3 x4 x5 x6 x7 x8 := by
  funext i
  obtain ⟨r, o, rfl⟩ : ∃ (r : Fin 65536) (o : Fin 2), i = ix2 r o := ⟨i 0, i 1, eq_ix2 i⟩
  rw [val_main_v25_apply, val_main_v22_apply, val_main_v24_apply, val_main_v23_apply]
  have el : ∀ j : Fin 512, lidx_main_v22 (ix2 r o) j = ix2 r j := fun j => idx2_eq _ _ _ rfl rfl
  have er : ∀ j : Fin 512, ridx_main_v22 (ix2 r o) j = ix2 j o := fun j => idx2_eq _ _ _ rfl rfl
  have eb : idx_main_v23 (idx_main_v24 (ix2 r o)) = ix1 o := idx1_eq _ _ rfl
  simp only [el, er, eb, hid2_apply]
  rfl

end Cert.ReferenceIdeal.RefValue

end
-- ==== Proof.lean ====
/-
  A row-wise perceptron with two hidden layers, computed in 32 bands of 2048 rows, against the same perceptron
  computed on the whole input at once.

  Both programs take a `65536 × 10` input and apply, to every row, the function `Mlp.out` (Proof/MlpRow.lean): a
  first hidden layer that adds an affine map of the row's ninth entry to a mixture, weighted by the row's first
  eight entries, of eight affine maps of its tenth entry, rectified; a second rectified affine layer; an affine
  output layer. One program walks the rows band by band, holds the two mixing tables side by side in one array and
  takes both mixtures as the two halves of a single product, and narrows the float format of its products' operands;
  the other forms each product over the whole input. On the extended reals narrowing a format changes nothing, a
  product into the zero matrix is the sum over the contracted index, and both programs add and multiply the same
  terms in the same order, so the two results are the same array `Mlp.G` of the arguments: for the banded program by
  Proof/KernelBlock.lean (one band) and Proof/KernelArray.lean (the bands cover the result), for the other by
  Proof/RefRows.lean. Nothing here needs the inputs to be finite.
-/
import proofs.«125312_j18631568130181_2_alg».proof.Defs
import proofs.«125312_j18631568130181_2_alg».proof.Proof.Gen.Kernel
import proofs.«125312_j18631568130181_2_alg».proof.Proof.Gen.Kernel.Skeleton
import proofs.«125312_j18631568130181_2_alg».proof.Proof.Gen.Kernel.Launch
import proofs.«125312_j18631568130181_2_alg».proof.Proof.Gen.Kernel.Points
import proofs.«125312_j18631568130181_2_alg».proof.Proof.Gen.Kernel.Frame
import proofs.«125312_j18631568130181_2_alg».proof.Proof.Gen.KernelIdeal
import proofs.«125312_j18631568130181_2_alg».proof.Proof.Gen.KernelIdeal.Skeleton
import proofs.«125312_j18631568130181_2_alg».proof.Proof.Gen.KernelIdeal.Launch
import proofs.«125312_j18631568130181_2_alg».proof.Proof.Gen.KernelIdeal.Points
import proofs.«125312_j18631568130181_2_alg».proof.Proof.Gen.KernelIdeal.Frame
import proofs.«125312_j18631568130181_2_alg».proof.Proof.Gen.ReferenceIdeal
import proofs.«125312_j18631568130181_2_alg».proof.Proof.Gen.Pre_finite_inputs
import proofs.«125312_j18631568130181_2_alg».proof.Proof.Gen.KernelIdeal.Value
import proofs.«125312_j18631568130181_2_alg».proof.Proof.Gen.ReferenceIdeal.Run
import proofs.«125312_j18631568130181_2_alg».proof.Proof.Gen.ReferenceIdeal.Read
import proofs.«125312_j18631568130181_2_alg».proof.Proof.KernelArray
import proofs.«125312_j18631568130181_2_alg».proof.Proof.RefRows
import Idealize.ShloMosaic.Adequacy
import Idealize.ShloMosaic.Init

noncomputable section

namespace Cert.Proof

open Idealize.ShloMosaic Idealize.SL.Sem

/-- The banded program, read at the word level, runs and leaves its arguments as they were. -/
theorem frame_kernel : Cert.frame_Kernel := fun m ρ _ => Cert.Kernel.Gen.frame m ρ

/-- The same on the extended reals. -/
theorem frame_kernelIdeal : Cert.frame_KernelIdeal := fun m ρ _ => Cert.KernelIdeal.Gen.frame m ρ

/-- The whole-input program runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The banded program's text is read on the extended reals as it stands: no operation was rewritten. -/
theorem preserves : Cert.preserves_Kernel_KernelIdeal := trivial

/-- From memories that agree on the arguments both programs end with the array `Mlp.G` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v25_eq, Cert.ReferenceIdeal.RefValue.value_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
